-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3000000 : Shape := ⟨1, ![3000000]⟩
abbrev S2048 : Shape := ⟨1, ![2048]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3000000 : S_.BroadcastsInDim S3000000 (![] : Fin 0 → Fin S3000000.rank)
  reducesTo_S3000000_S_d0 : S3000000.ReducesTo [0] S_

variable [Facts]

def fn {F : FTy → Type} [FloatOps F] (main_arg0 : FVec F S100000x64 .f32) (main_arg1 : FVec F S50000x64 .f32) (main_arg2 : FVec F S3000000 .f32) (main_arg3 : IVec S3000000 32) (main_arg4 : IVec S3000000 32) (main_arg5 : IVec S2048 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3000000 .f32 := Host.absf main_arg2
  let main_cst_2 : FVec F S_ .f32 := constant S_ .f32 0x7F800000#32
  let main_v10 : FVec F S3000000 .f32 := broadcastInDim S3000000 ![] bcast_S_S3000000 main_cst_2
  let main_v11 : IVec S3000000 1 := cmpf .olt main_v9 main_v10
  let main_c_3 : IVec S_ 1 := constantI S_ 1 1#1
  let main_v12 : IVec S_ 1 := (fun x v => Host.reduce IntOp.andi x v reducesTo_S3000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S3000000 : Shape := ⟨1, ![3000000]⟩
abbrev S2048 : Shape := ⟨1, ![2048]⟩
abbrev S150000x64 : Shape := ⟨2, ![150000, 64]⟩
abbrev S3000000x1 : Shape := ⟨2, ![3000000, 1]⟩
abbrev S_ : Shape := ⟨0, ![]⟩
abbrev S3000000x64 : Shape := ⟨2, ![3000000, 64]⟩
abbrev S2048x1 : Shape := ⟨2, ![2048, 1]⟩
abbrev S2048x64 : Shape := ⟨2, ![2048, 64]⟩
abbrev S64x50000 : Shape := ⟨2, ![64, 50000]⟩
abbrev S64x50176 : Shape := ⟨2, ![64, 50176]⟩
abbrev S2048x50176 : Shape := ⟨2, ![2048, 50176]⟩
abbrev S64x1024 : Shape := ⟨2, ![64, 1024]⟩
abbrev S2048x1024 : Shape := ⟨2, ![2048, 1024]⟩
abbrev S2048x50000 : Shape := ⟨2, ![2048, 50000]⟩

abbrev nBuf : Space → Nat
  | .hbm => 80
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3000000, .f32⟩
  | .hbm, ⟨3, _⟩ => ⟨S3000000, .i32⟩
  | .hbm, ⟨4, _⟩ => ⟨S3000000, .i32⟩
  | .hbm, ⟨5, _⟩ => ⟨S2048, .i32⟩
  | .hbm, ⟨6, _⟩ => ⟨S150000x64, .f32⟩
  | .hbm, ⟨7, _⟩ => ⟨S3000000x1, .f32⟩
  | .hbm, ⟨8, _⟩ => ⟨S_, .i32⟩
  | .hbm, ⟨9, _⟩ => ⟨S3000000, .i32⟩
  | .hbm, ⟨10, _⟩ => ⟨S3000000, .i1⟩
  | .hbm, ⟨11, _⟩ => ⟨S_, .i32⟩
  | .hbm, ⟨12, _⟩ => ⟨S3000000, .i32⟩
  | .hbm, ⟨13, _⟩ => ⟨S3000000, .i32⟩
  | .hbm, ⟨14, _⟩ => ⟨S3000000, .i32⟩
  | .hbm, ⟨15, _⟩ => ⟨S3000000x1, .i32⟩
  | .hbm, ⟨16, _⟩ => ⟨S3000000x64, .f32⟩
  | .hbm, ⟨17, _⟩ => ⟨S3000000x64, .f32⟩
  | .hbm, ⟨18, _⟩ => ⟨S3000000x64, .f32⟩
  | .hbm, ⟨19, _⟩ => ⟨S_, .f32⟩
  | .hbm, ⟨20, _⟩ => ⟨S150000x64, .f32⟩
  | .hbm, ⟨21, _⟩ => ⟨S3000000x1, .i32⟩
  | .hbm, ⟨22, _⟩ => ⟨S150000x64, .f32⟩
  | .hbm, ⟨23, _⟩ => ⟨S150000x64, .f32⟩
  | .hbm, ⟨24, _⟩ => ⟨S3000000x1, .f32⟩
  | .hbm, ⟨25, _⟩ => ⟨S_, .i32⟩
  | .hbm, ⟨26, _⟩ => ⟨S3000000, .i32⟩
  | .hbm, ⟨27, _⟩ => ⟨S3000000, .i1⟩
  | .hbm, ⟨28, _⟩ => ⟨S_, .i32⟩
  | .hbm, ⟨29, _⟩ => ⟨S3000000, .i32⟩
  | .hbm, ⟨30, _⟩ => ⟨S3000000, .i32⟩
  | .hbm, ⟨31, _⟩ => ⟨S3000000, .i32⟩
  | .hbm, ⟨32, _⟩ => ⟨S3000000x1, .i32⟩
  | .hbm, ⟨33, _⟩ => ⟨S3000000x64, .f32⟩
  | .hbm, ⟨34, _⟩ => ⟨S3000000x64, .f32⟩
  | .hbm, ⟨35, _⟩ => ⟨S3000000x64, .f32⟩
  | .hbm, ⟨36, _⟩ => ⟨S_, .f32⟩
  | .hbm, ⟨37, _⟩ => ⟨S150000x64, .f32⟩
  | .hbm, ⟨38, _⟩ => ⟨S3000000x1, .i32⟩
  | .hbm, ⟨39, _⟩ => ⟨S150000x64, .f32⟩
  | .hbm, ⟨40, _⟩ => ⟨S150000x64, .f32⟩
  | .hbm, ⟨41, _⟩ => ⟨S3000000x1, .f32⟩
  | .hbm, ⟨42, _⟩ => ⟨S_, .i32⟩
  | .hbm, ⟨43, _⟩ => ⟨S3000000, .i32⟩
  | .hbm, ⟨44, _⟩ => ⟨S3000000, .i1⟩
  | .hbm, ⟨45, _⟩ => ⟨S_, .i32⟩
  | .hbm, ⟨46, _⟩ => ⟨S3000000, .i32⟩
  | .hbm, ⟨47, _⟩ => ⟨S3000000, .i32⟩
  | .hbm, ⟨48, _⟩ => ⟨S3000000, .i32⟩
  | .hbm, ⟨49, _⟩ => ⟨S3000000x1, .i32⟩
  | .hbm, ⟨50, _⟩ => ⟨S3000000x64, .f32⟩
  | .hbm, ⟨51, _⟩ => ⟨S3000000x64, .f32⟩
  | .hbm, ⟨52, _⟩ => ⟨S3000000x64, .f32⟩
  | .hbm, ⟨53, _⟩ => ⟨S_, .f32⟩
  | .hbm, ⟨54, _⟩ => ⟨S150000x64, .f32⟩
  | .hbm, ⟨55, _⟩ => ⟨S3000000x1, .i32⟩
  | .hbm, ⟨56, _⟩ => ⟨S150000x64, .f32⟩
  | .hbm, ⟨57, _⟩ => ⟨S150000x64, .f32⟩
  | .hbm, ⟨58, _⟩ => ⟨S_, .f32⟩
  | .hbm, ⟨59, _⟩ => ⟨S150000x64, .f32⟩
  | .hbm, ⟨60, _⟩ => ⟨S150000x64, .f32⟩
  | .hbm, ⟨61, _⟩ => ⟨S100000x64, .f32⟩
  | .hbm, ⟨62, _⟩ => ⟨S50000x64, .f32⟩
  | .hbm, ⟨63, _⟩ => ⟨S_, .i32⟩
  | .hbm, ⟨64, _⟩ => ⟨S2048, .i32⟩
  | .hbm, ⟨65, _⟩ => ⟨S2048, .i1⟩
  | .hbm, ⟨66, _⟩ => ⟨S_, .i32⟩
  | .hbm, ⟨67, _⟩ => ⟨S2048, .i32⟩
  | .hbm, ⟨68, _⟩ => ⟨S2048, .i32⟩
  | .hbm, ⟨69, _⟩ => ⟨S2048, .i32⟩
  | .hbm, ⟨70, _⟩ => ⟨S2048x1, .i32⟩
  | .hbm, ⟨71, _⟩ => ⟨S2048x64, .f32⟩
  | .hbm, ⟨72, _⟩ => ⟨S64x50000, .f32⟩
  | .hbm, ⟨73, _⟩ => ⟨S_, .i32⟩
  | .hbm, ⟨74, _⟩ => ⟨S_, .f32⟩
  | .hbm, ⟨75, _⟩ => ⟨S64x50176, .f32⟩
  | .hbm, ⟨76, _⟩ => ⟨S2048x64, .bf16⟩
  | .hbm, ⟨77, _⟩ => ⟨S64x50176, .bf16⟩
  | .hbm, ⟨78, _⟩ => ⟨S2048x50176, .f32⟩
  | .hbm, ⟨79, _⟩ => ⟨S2048x50000, .f32⟩
  | .local _ .vmem, ⟨0, _⟩ => ⟨S2048x64, .bf16⟩
  | .local _ .vmem, ⟨1, _⟩ => ⟨S64x1024, .bf16⟩
  | .local _ .vmem, ⟨2, _⟩ => ⟨S64x1024, .bf16⟩
  | .local _ .vmem, ⟨3, _⟩ => ⟨S2048x1024, .f32⟩
  | .local _ .vmem, ⟨4, _⟩ => ⟨S2048x1024, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_call0_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S100000x64_S50000x64_S150000x64_d0 : Shape.Concatenates [S100000x64, S50000x64] S150000x64 0
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S2048 : S_.BroadcastsInDim S2048 (![] : Fin 0 → Fin S2048.rank)
  bcast_S2048_S2048x1_0 : S2048.BroadcastsInDim S2048x1 (![0] : Fin 1 → Fin S2048x1.rank)
  transposes_S50000x64_S64x50000_1_0 : S50000x64.Transposes [1, 0] S64x50000
  pads_S64x50000_S64x50176_000_01760 : S64x50000.Pads (![0, 0] : Fin 2 → Nat) ![0, 176] ![0, 0] S64x50176
  h_S_ : 0 < S_.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S2048x1024_S2048x1024_0_0 : ∀ a, (![0, 0] : Fin 2 → Nat) a + S2048x1024.size a ≤ S2048x1024.size a
  h_S2048x1024 : 0 < S2048x1024.numel
  slices_S2048x50176_S2048x50000_0_0 : S2048x50176.Slices ![0, 0] S2048x50000
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  gather_S100000x64_S2048x1_S2048x64_1_0_n_n_0_1_164_wf : GatherDims.WF S100000x64 S2048x1 S2048x64 [1] [0] [] [0] [] 1 ![1, 64]
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S2048x64.size a
  hwx0_0 : ∀ i : grid0.Coords, EltTy.bits .bf16 = 32 ∨ (Rect.block (s := S2048x64) S2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x50176.size a
  hwx0_1 : ∀ i : grid0.Coords, EltTy.bits .bf16 = 32 ∨ (Rect.block (s := S64x50176) S64x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x50176.size a
  hwx0_2 : ∀ i : grid0.Coords, EltTy.bits .f32 = 32 ∨ (Rect.block (s := S2048x50176) S2048x1024.size (cc0_transform_2 i) (hinb0_2 i)).WholeWords (EltTy.packing .f32)

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_v56) S2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v57) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S3000000 : Shape := ⟨1, ![3000000]⟩
abbrev S2048 : Shape := ⟨1, ![2048]⟩
abbrev S150000x64 : Shape := ⟨2, ![150000, 64]⟩
abbrev S3000000x1 : Shape := ⟨2, ![3000000, 1]⟩
abbrev S_ : Shape := ⟨0, ![]⟩
abbrev S3000000x64 : Shape := ⟨2, ![3000000, 64]⟩
abbrev S2048x1 : Shape := ⟨2, ![2048, 1]⟩
abbrev S2048x64 : Shape := ⟨2, ![2048, 64]⟩
abbrev S64x50000 : Shape := ⟨2, ![64, 50000]⟩
abbrev S2048x50000 : Shape := ⟨2, ![2048, 50000]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S3000000, .f32⟩
  | .hbm, ⟨3, _⟩ => ⟨S3000000, .i32⟩
  | .hbm, ⟨4, _⟩ => ⟨S3000000, .i32⟩
  | .hbm, ⟨5, _⟩ => ⟨S2048, .i32⟩
  | .hbm, ⟨6, _⟩ => ⟨S150000x64, .f32⟩
  | .hbm, ⟨7, _⟩ => ⟨S3000000x1, .f32⟩
  | .hbm, ⟨8, _⟩ => ⟨S_, .i32⟩
  | .hbm, ⟨9, _⟩ => ⟨S3000000, .i32⟩
  | .hbm, ⟨10, _⟩ => ⟨S3000000, .i1⟩
  | .hbm, ⟨11, _⟩ => ⟨S_, .i32⟩
  | .hbm, ⟨12, _⟩ => ⟨S3000000, .i32⟩
  | .hbm, ⟨13, _⟩ => ⟨S3000000, .i32⟩
  | .hbm, ⟨14, _⟩ => ⟨S3000000, .i32⟩
  | .hbm, ⟨15, _⟩ => ⟨S3000000x1, .i32⟩
  | .hbm, ⟨16, _⟩ => ⟨S3000000x64, .f32⟩
  | .hbm, ⟨17, _⟩ => ⟨S3000000x64, .f32⟩
  | .hbm, ⟨18, _⟩ => ⟨S3000000x64, .f32⟩
  | .hbm, ⟨19, _⟩ => ⟨S_, .f32⟩
  | .hbm, ⟨20, _⟩ => ⟨S150000x64, .f32⟩
  | .hbm, ⟨21, _⟩ => ⟨S3000000x1, .i32⟩
  | .hbm, ⟨22, _⟩ => ⟨S150000x64, .f32⟩
  | .hbm, ⟨23, _⟩ => ⟨S150000x64, .f32⟩
  | .hbm, ⟨24, _⟩ => ⟨S3000000x1, .f32⟩
  | .hbm, ⟨25, _⟩ => ⟨S_, .i32⟩
  | .hbm, ⟨26, _⟩ => ⟨S3000000, .i32⟩
  | .hbm, ⟨27, _⟩ => ⟨S3000000, .i1⟩
  | .hbm, ⟨28, _⟩ => ⟨S_, .i32⟩
  | .hbm, ⟨29, _⟩ => ⟨S3000000, .i32⟩
  | .hbm, ⟨30, _⟩ => ⟨S3000000, .i32⟩
  | .hbm, ⟨31, _⟩ => ⟨S3000000, .i32⟩
  | .hbm, ⟨32, _⟩ => ⟨S3000000x1, .i32⟩
  | .hbm, ⟨33, _⟩ => ⟨S3000000x64, .f32⟩
  | .hbm, ⟨34, _⟩ => ⟨S3000000x64, .f32⟩
  | .hbm, ⟨35, _⟩ => ⟨S3000000x64, .f32⟩
  | .hbm, ⟨36, _⟩ => ⟨S_, .f32⟩
  | .hbm, ⟨37, _⟩ => ⟨S150000x64, .f32⟩
  | .hbm, ⟨38, _⟩ => ⟨S3000000x1, .i32⟩
  | .hbm, ⟨39, _⟩ => ⟨S150000x64, .f32⟩
  | .hbm, ⟨40, _⟩ => ⟨S150000x64, .f32⟩
  | .hbm, ⟨41, _⟩ => ⟨S3000000x1, .f32⟩
  | .hbm, ⟨42, _⟩ => ⟨S_, .i32⟩
  | .hbm, ⟨43, _⟩ => ⟨S3000000, .i32⟩
  | .hbm, ⟨44, _⟩ => ⟨S3000000, .i1⟩
  | .hbm, ⟨45, _⟩ => ⟨S_, .i32⟩
  | .hbm, ⟨46, _⟩ => ⟨S3000000, .i32⟩
  | .hbm, ⟨47, _⟩ => ⟨S3000000, .i32⟩
  | .hbm, ⟨48, _⟩ => ⟨S3000000, .i32⟩
  | .hbm, ⟨49, _⟩ => ⟨S3000000x1, .i32⟩
  | .hbm, ⟨50, _⟩ => ⟨S3000000x64, .f32⟩
  | .hbm, ⟨51, _⟩ => ⟨S3000000x64, .f32⟩
  | .hbm, ⟨52, _⟩ => ⟨S3000000x64, .f32⟩
  | .hbm, ⟨53, _⟩ => ⟨S_, .f32⟩
  | .hbm, ⟨54, _⟩ => ⟨S150000x64, .f32⟩
  | .hbm, ⟨55, _⟩ => ⟨S3000000x1, .i32⟩
  | .hbm, ⟨56, _⟩ => ⟨S150000x64, .f32⟩
  | .hbm, ⟨57, _⟩ => ⟨S150000x64, .f32⟩
  | .hbm, ⟨58, _⟩ => ⟨S_, .f32⟩
  | .hbm, ⟨59, _⟩ => ⟨S150000x64, .f32⟩
  | .hbm, ⟨60, _⟩ => ⟨S150000x64, .f32⟩
  | .hbm, ⟨61, _⟩ => ⟨S100000x64, .f32⟩
  | .hbm, ⟨62, _⟩ => ⟨S50000x64, .f32⟩
  | .hbm, ⟨63, _⟩ => ⟨S_, .i32⟩
  | .hbm, ⟨64, _⟩ => ⟨S2048, .i32⟩
  | .hbm, ⟨65, _⟩ => ⟨S2048, .i1⟩
  | .hbm, ⟨66, _⟩ => ⟨S_, .i32⟩
  | .hbm, ⟨67, _⟩ => ⟨S2048, .i32⟩
  | .hbm, ⟨68, _⟩ => ⟨S2048, .i32⟩
  | .hbm, ⟨69, _⟩ => ⟨S2048, .i32⟩
  | .hbm, ⟨70, _⟩ => ⟨S2048x1, .i32⟩
  | .hbm, ⟨71, _⟩ => ⟨S2048x64, .f32⟩
  | .hbm, ⟨72, _⟩ => ⟨S64x50000, .f32⟩
  | .hbm, ⟨73, _⟩ => ⟨S2048x50000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S2048 : S_.BroadcastsInDim S2048 (![] : Fin 0 → Fin S2048.rank)
  bcast_S2048_S2048x1_0 : S2048.BroadcastsInDim S2048x1 (![0] : Fin 1 → Fin S2048x1.rank)
  transposes_S50000x64_S64x50000_1_0 : S50000x64.Transposes [1, 0] S64x50000
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  gather_S100000x64_S2048x1_S2048x64_1_0_n_n_0_1_164_wf : GatherDims.WF S100000x64 S2048x1 S2048x64 [1] [0] [] [0] [] 1 ![1, 64]
  dot_S2048x64_S64x50000_S2048x50000_1_0_0_1_n_n_wf : DotDims.WF S2048x64 S64x50000 S2048x50000 [1] [0] [0] [1] [] []

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def dot_S2048x64_S64x50000_S2048x50000_1_0_0_1_n_n : DotDims S2048x64 S64x50000 S2048x50000 where
  lhsContracting := [1]
  rhsContracting := [0]
  lhsNonContracting := [0]
  rhsNonContracting := [1]
  lhsBatch := []
  rhsBatch := []
  wf := dot_S2048x64_S64x50000_S2048x50000_1_0_0_1_n_n_wf

class Facts : Prop extends Facts₀ where

variable [Facts]
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.Body.lean ====
/-
  What one grid point computes.

  The body loads the whole user block `x0 : [2048, 64]` and one tile `x1 : [64, 1024]` of item embeddings, multiplies
  them into a zero accumulator and stores the product over the whole output block. So the block it leaves holds, at
  `(p, q)`, the inner product `Σ_k x0 (p, k) · x1 (k, q)` over the 64 features: the one store at offset zero leaves
  its payload, the loads at offset zero read the blocks, the shape casts to the same shape are the identity, and a
  product contracting columns against rows into zero is that sum.
-/
import proofs.«181540_j50044958933433_1_alg».proof.Proof.Gen.KernelIdeal.Frame
import proofs.«181540_j50044958933433_1_alg».proof.Proof.LibPlainMatmul
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

theorem zero2 : (![0, 0] : Fin 2 → Nat) = fun _ => 0 := funext fun a => by fin_cases a <;> rfl

/-! The product's dimension numbers, coordinate by coordinate: the output's row names the left operand's row, the
    output's column the right operand's column, and the one contracted coordinate the left's column and the right's row. -/

theorem lhs_row (i : S2048x1024.Idx) (q : dot_S2048x64_S64x1024_S2048x1024_1_0_0_1_n_n.contr.Idx) :
    (dot_S2048x64_S64x1024_S2048x1024_1_0_0_1_n_n.lhsIdx i q 0).val = (i 0).val := by
  unfold DotDims.lhsIdx
  rw [dif_neg (show ¬(0 : Fin S2048x64.rank) ∈ dot_S2048x64_S64x1024_S2048x1024_1_0_0_1_n_n.lhsBatch by decide),
    dif_pos (show (0 : Fin S2048x64.rank) ∈ dot_S2048x64_S64x1024_S2048x1024_1_0_0_1_n_n.lhsNonContracting by decide)]
  rfl

theorem lhs_col (i : S2048x1024.Idx) (q : dot_S2048x64_S64x1024_S2048x1024_1_0_0_1_n_n.contr.Idx) :
    (dot_S2048x64_S64x1024_S2048x1024_1_0_0_1_n_n.lhsIdx i q 1).val = (q ⟨0, by decide⟩).val :=
  dot_S2048x64_S64x1024_S2048x1024_1_0_0_1_n_n.lhsIdx_val_of_single rfl i q

theorem rhs_row (i : S2048x1024.Idx) (q : dot_S2048x64_S64x1024_S2048x1024_1_0_0_1_n_n.contr.Idx) :
    (dot_S2048x64_S64x1024_S2048x1024_1_0_0_1_n_n.rhsIdx i q 0).val = (q ⟨0, by decide⟩).val :=
  dot_S2048x64_S64x1024_S2048x1024_1_0_0_1_n_n.rhsIdx_val_of_single rfl i q

theorem rhs_col (i : S2048x1024.Idx) (q : dot_S2048x64_S64x1024_S2048x1024_1_0_0_1_n_n.contr.Idx) :
    (dot_S2048x64_S64x1024_S2048x1024_1_0_0_1_n_n.rhsIdx i q 1).val = (i 1).val := by
  unfold DotDims.rhsIdx
  rw [dif_neg (show ¬(1 : Fin S64x1024.rank) ∈ dot_S2048x64_S64x1024_S2048x1024_1_0_0_1_n_n.rhsBatch by decide),
    dif_pos (show (1 : Fin S64x1024.rank) ∈ dot_S2048x64_S64x1024_S2048x1024_1_0_0_1_n_n.rhsNonContracting by decide)]
  rfl

/-- The stored product at `(p, q)` is the inner product of row `p` of the user block with column `q` of the tile. -/
theorem product_at (x0 : FVec Ideal S2048x64 .bf16) (x1 : FVec Ideal S64x1024 .bf16) (p : Fin 2048) (q : Fin 1024) :
    k0_pay1 (F := Ideal) x0 x1 (ix2 p q) = ∑ k : Fin 64, x0 (ix2 p k) * x1 (ix2 k q) := by
  unfold k0_pay1
  simp only [shapeCast_self]
  exact Cert.LibPlainMatmul.matmul_zero_at (M := 2048) (K := 64) (N := 1024)
    dot_S2048x64_S64x1024_S2048x1024_1_0_0_1_n_n none rfl rfl lhs_row lhs_col rhs_row rhs_col x0 x1 p q

/-- The output block after the body, at `(p, q)`. -/
theorem block_at (x0 : FVec Ideal S2048x64 .bf16) (x1 : FVec Ideal S64x1024 .bf16) (p : Fin 2048) (q : Fin 1024) :
    out0_2 (F := Ideal) x0 x1 (ix2 p q) = ∑ k : Fin 64, x0 (ix2 p k) * x1 (ix2 k q) := by
  unfold out0_2
  rw [View.canon_unit_zero zero2]
  simp only [View.ld_unit_zero (S := S2048x64) zero2, View.ld_unit_zero (S := S64x1024) zero2]
  exact product_at x0 x1 p q

/-- The same at any index of the block, its coordinates named by their values. -/
theorem block_apply (x0 : FVec Ideal S2048x64 .bf16) (x1 : FVec Ideal S64x1024 .bf16) (y : S2048x1024.Idx) :
    out0_2 (F := Ideal) x0 x1 y
      = ∑ k : Fin 64, x0 (ix2 (⟨(y 0).val, idx2_lt0 y⟩ : Fin 2048) k) * x1 (ix2 k (⟨(y 1).val, idx2_lt1 y⟩ : Fin 1024)) := by
  obtain ⟨p, q, rfl⟩ : ∃ (p : Fin 2048) (q : Fin 1024), y = ix2 p q := ⟨y 0, y 1, eq_ix2 y⟩
  exact block_at x0 x1 p q

end Cert.KernelIdeal.Body

end
-- ==== Proof.Whole.lean ====
/-
  From the 49 tiles to the whole product.

  Grid point `t` reads the whole user array `A : [2048, 64]` and columns `1024 t … 1024 t + 1023` of the padded item
  array `B : [64, 50176]`, and writes back columns `1024 t … 1024 t + 1023` of the output `[2048, 50176]`. Since column
  `n` of a product depends on column `n` of the right factor only, every tile written back is the restriction of ONE
  function of the two arrays, `product A B (p, n) = Σ_k A (p, k) · B (k, n)`; and the 49 tiles cover all 50176 columns
  (column `n` lies in tile `n / 1024`). So after the last point the output array is `product A B`.
-/
import proofs.«181540_j50044958933433_1_alg».proof.Proof.Body

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The padded product: row `p` of the left array against column `n` of the right. -/
def product (A : FVec Ideal S2048x64 .bf16) (B : FVec Ideal S64x50176 .bf16) : FVec Ideal S2048x50176 .f32 :=
  fun i => ∑ k : Fin 64, A (ix2 (⟨(i 0).val, idx2_lt0 i⟩ : Fin 2048) k) * B (ix2 k (⟨(i 1).val, idx2_lt1 i⟩ : Fin 50176))

theorem product_at (A : FVec Ideal S2048x64 .bf16) (B : FVec Ideal S64x50176 .bf16) (p : Fin 2048) (n : Fin 50176) :
    product A B (ix2 p n) = ∑ k : Fin 64, A (ix2 p k) * B (ix2 k n) := rfl

/-- The index maps over the grid: the user window stays on block (0, 0); the item window and the output window are both
    on column block `t`. -/
theorem index_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The user window's block at any point is the whole user array. -/
theorem users_block (c : Dev nD) (t : Fin cfg0.N) (y i : S2048x64.Idx) (h0 : (i 0).val = (y 0).val) (h1 : (i 1).val = (y 1).val) :
    (iblk m c 0 t : Vec Ideal S2048x64 .bf16) y = (V m c main_v56 : S2048x64.Idx → EReal) i := by
  obtain ⟨e00, e01, -, -, -, -⟩ := index_facts t
  unfold iblk
  rw [View.read_apply]
  show (V m c main_v56 : S2048x64.Idx → EReal) _ = (V m c main_v56 : S2048x64.Idx → EReal) i
  refine congrArg (V m c main_v56 : S2048x64.Idx → EReal) (funext fun a => Fin.ext ?_)
  match a with
  | ⟨0, _⟩ => show win0_0.index t (0 : Fin 2) * 2048 + 1 * (y 0).val = (i 0).val; rw [e00, h0]; omega
  | ⟨1, _⟩ => show win0_0.index t (1 : Fin 2) * 64 + 1 * (y 1).val = (i 1).val; rw [e01, h1]; omega

/-- The item window's block at point `t` is columns `1024 t …` of the padded item array. -/
theorem items_block (c : Dev nD) (t : Fin cfg0.N) (y : S64x1024.Idx) (i : S64x50176.Idx) (h0 : (i 0).val = (y 0).val)
    (h1 : (i 1).val = t.val * 1024 + (y 1).val) :
    (iblk m c 1 t : Vec Ideal S64x1024 .bf16) y = (V m c main_v57 : S64x50176.Idx → EReal) i := by
  obtain ⟨-, -, e10, e11, -, -⟩ := index_facts t
  unfold iblk
  rw [View.read_apply]
  show (V m c main_v57 : S64x50176.Idx → EReal) _ = (V m c main_v57 : S64x50176.Idx → EReal) i
  refine congrArg (V m c main_v57 : S64x50176.Idx → EReal) (funext fun a => Fin.ext ?_)
  match a with
  | ⟨0, _⟩ => show win0_1.index t (0 : Fin 2) * 64 + 1 * (y 0).val = (i 0).val; rw [e10, h0]; omega
  | ⟨1, _⟩ => show win0_1.index t (1 : Fin 2) * 1024 + 1 * (y 1).val = (i 1).val; rw [e11, h1]; omega

/-- What point `t` writes back is tile `t` of the product of the two arrays as the region finds them. -/
theorem flushed_eq (c : Dev nD) (t : Fin cfg0.N) :
    (dats m 0 c).flushed 2 t = ((cfg0.win 2).blk t).view.read (Elt Ideal)
      (product (V m c main_v56 : S2048x64.Idx → EReal) (V m c main_v57 : S64x50176.Idx → EReal)) := by
  show (cfg0.win 2).cut (grid0.coords t) ((dats m 0 c).after 2 t) = _
  rw [after0_2]
  obtain ⟨-, -, -, -, e20, e21⟩ := index_facts t
  funext j
  have hj0 : (j 0).val < 2048 := (j 0).isLt
  have hj1 : (j 1).val < 1024 := (j 1).isLt
  show out0_2 (iblk m c 0 t) (iblk m c 1 t) j = product _ _ (((cfg0.win 2).blk t).view.emb j)
  rw [Cert.KernelIdeal.Body.block_apply (iblk m c 0 t) (iblk m c 1 t) j]
  unfold product
  refine Finset.sum_congr rfl fun k _ => ?_
  refine congrArg₂ (· * ·) ?_ ?_
  · exact users_block m c t (ix2 (⟨(j 0).val, hj0⟩ : Fin 2048) k) _
      (by show win0_2.index t (0 : Fin 2) * 2048 + 1 * (j 0).val = (j 0).val; rw [e20]; omega) rfl
  · exact items_block m c t (ix2 k (⟨(j 1).val, hj1⟩ : Fin 1024)) _ rfl
      (by show win0_2.index t (1 : Fin 2) * 1024 + 1 * (j 1).val = t.val * 1024 + (j 1).val; rw [e21]; omega)

/-- An index of the output array is in point `t`'s tile iff each coordinate is in the tile's range. -/
theorem mem_tile (t : Fin cfg0.N) (i : S2048x50176.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v58).slice (win0_2.rect t)).set ↔ _
  rw [View.set_slice_whole, Rect.mem_set_unit]
  exact Iff.rfl

/-- The output array after the last point is the product. -/
theorem final (c : Dev nD) :
    (dats m 0 c).arrAt 2 cfg0.N
      = product (V m c main_v56 : S2048x64.Idx → EReal) (V m c main_v57 : S64x50176.Idx → EReal) :=
  (dats m 0 c).arrAt_eq_of_cover 2 _ (fun t _ => flushed_eq m c t) fun i => by
    have hN : cfg0.N = 49 := N_0
    have hi0 : (i 0).val < 2048 := (i 0).isLt
    have hi1 : (i 1).val < 50176 := (i 1).isLt
    let t : Fin cfg0.N := ⟨(i 1).val / 1024, by rw [hN]; omega⟩
    obtain ⟨-, -, -, -, e20, e21⟩ := index_facts t
    refine ⟨t, flush0_2 t, ?_⟩
    rw [mem_tile]
    intro a
    match a with
    | ⟨0, _⟩ => show win0_2.index t (0 : Fin 2) * 2048 ≤ (i 0).val ∧ (i 0).val < win0_2.index t (0 : Fin 2) * 2048 + 2048
                rw [e20]; omega
    | ⟨1, _⟩ => show win0_2.index t (1 : Fin 2) * 1024 ≤ (i 1).val ∧ (i 1).val < win0_2.index t (1 : Fin 2) * 1024 + 1024
                rw [e21]; show (i 1).val / 1024 * 1024 ≤ (i 1).val ∧ (i 1).val < (i 1).val / 1024 * 1024 + 1024; omega

end Cert.KernelIdeal.Whole

end
-- ==== Proof.Entry.lean ====
/-
  The two arrays the region reads, as it finds them.

  Before the region the host propagates the embeddings over the graph three times, averages the four layers, cuts the
  average into its user rows and its item rows, gathers the batch's user rows and transposes the item rows to
  feature-major. These are, operation for operation, the reference's own first lines, so the gathered user rows
  `[2048, 64]` and the transposed item rows `[64, 50000]` are the very arrays the reference's run names — here
  `users` and `items`, of the kernel's argument arrays — and they are carried under those names, never opened.
  The kernel then only re-lays them out: the user rows are narrowed to the 16-bit format, which on the extended reals
  changes nothing; the item columns are padded on the right from 50000 to 50176 (49 tiles of 1024) and narrowed
  likewise. So the region's first array is `users`, and its second array agrees with `items` on the first 50000
  columns; what the padding holds is never needed.
-/
import proofs.«181540_j50044958933433_1_alg».proof.Proof.Gen.KernelIdeal.Frame
import proofs.«181540_j50044958933433_1_alg».proof.Proof.Gen.ReferenceIdeal.Read
import Idealize.ShloMosaic.Lib.StableHlo.Run
import Idealize.ShloMosaic.Lib.ValueIdx
import Idealize.ShloMosaic.Lib.KernelVsHost

noncomputable section

namespace Cert.KernelIdeal.Entry

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The batch's user embeddings after propagation and averaging, `[2048, 64]`: the array the reference's run names,
    of the kernel's argument arrays. -/
def users (c : Dev nD) : FVec Ideal ⟨2, ![2048, 64]⟩ .f32 :=
  Cert.ReferenceIdeal.Read.val_main_v53 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The item embeddings after propagation and averaging, feature-major `[64, 50000]`: likewise. -/
def items (c : Dev nD) : FVec Ideal ⟨2, ![64, 50000]⟩ .f32 :=
  Cert.ReferenceIdeal.Read.val_main_v54 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

set_option maxRecDepth 8192 in
set_option maxHeartbeats 4000000 in
/-- The region's first array is the user embeddings narrowed. -/
theorem users_entry (c : Dev nD) :
    (V m c main_v56 : S2048x64.Idx → EReal) = truncf .bf16 (users m c) bitsLt_bf16_f32 := by
  dsimp only [V, V0]
  simp only [hostOps0, hostOps0_1, hostOps0_2, List.flatten_cons, List.flatten_nil, List.append_nil, List.cons_append, List.nil_append]
  after_results_simp
  rfl

set_option maxRecDepth 8192 in
set_option maxHeartbeats 4000000 in
/-- The region's second array is the item embeddings padded on the right and narrowed. -/
theorem items_entry (c : Dev nD) :
    (V m c main_v57 : S64x50176.Idx → EReal)
      = truncf .bf16 (pad S64x50176 ![0, 0] ![0, 176] ![0, 0] (items m c) (sitofp .f32 (constantI S_ 32 0#32))
          pads_S64x50000_S64x50176_000_01760 h_S_) bitsLt_bf16_f32 := by
  dsimp only [V, V0]
  simp only [hostOps0, hostOps0_1, hostOps0_2, List.flatten_cons, List.flatten_nil, List.append_nil, List.cons_append, List.nil_append]
  after_results_simp
  rfl

/-- The first array at `(p, k)`. -/
theorem users_at (c : Dev nD) (p : Fin 2048) (k : Fin 64) :
    (V m c main_v56 : S2048x64.Idx → EReal) (ix2 p k) = users m c (ix2 p k) := by
  rw [users_entry]; rfl

/-- The second array at `(k, n)`, for an item `n` (a column left of the padding). -/
theorem items_at (c : Dev nD) (k : Fin 64) (n : Fin 50000) :
    (V m c main_v57 : S64x50176.Idx → EReal) (ix2 k (⟨n.val, by omega⟩ : Fin 50176)) = items m c (ix2 k n) := by
  rw [items_entry, truncf_apply]
  refine pad_apply_of_inside ![0, 0] ![0, 176] ![0, 0] (items m c) _ pads_S64x50000_S64x50176_000_01760 h_S_ _ (ix2 k n) fun a => ?_
  match a with
  | ⟨0, _⟩ => show k.val = 0 + k.val * (0 + 1); omega
  | ⟨1, _⟩ => show n.val = 0 + n.val * (0 + 1); omega

end Cert.KernelIdeal.Entry

end
-- ==== Proof.Rating.lean ====
/-
  The rating matrix.

  A batch of 2048 users, each with a 64-dimensional embedding `U (p, ·)`, is scored against 50000 items whose embeddings
  are stored feature-major, `W (·, n)`: the rating of user `p` for item `n` is the inner product
  `Σ_k U (p, k) · W (k, n)` over the 64 features, taken on the extended reals. Both programs compute this matrix from
  the same two arrays; nothing here mentions a program.
-/
import Idealize.ShloMosaic.PureOps.Ideal
import Idealize.ShloMosaic.Lib.ValueIdx

noncomputable section

namespace Cert.Rating

open Idealize.ShloMosaic Idealize.ShloMosaic.ValueIdx

/-- The rating of user `i 0` for item `i 1`: the inner product of the user's embedding with the item's. -/
def rating (U : FVec Ideal ⟨2, ![2048, 64]⟩ .f32) (W : FVec Ideal ⟨2, ![64, 50000]⟩ .f32) :
    FVec Ideal ⟨2, ![2048, 50000]⟩ .f32 :=
  fun i => ∑ k : Fin 64, U (ix2 ⟨(i 0).val, idx2_lt0 i⟩ k) * W (ix2 k ⟨(i 1).val, idx2_lt1 i⟩)

/-- The rating read at a pair of coordinates. -/
theorem rating_at (U : FVec Ideal ⟨2, ![2048, 64]⟩ .f32) (W : FVec Ideal ⟨2, ![64, 50000]⟩ .f32)
    (p : Fin 2048) (n : Fin 50000) :
    rating U W (ix2 p n) = ∑ k : Fin 64, U (ix2 p k) * W (ix2 k n) := rfl

end Cert.Rating

end
-- ==== Proof.KernelRun.lean ====
/-
  The kernel's run, read.

  After the region the host keeps the first 50000 columns of the `[2048, 50176]` product. At `(p, n)` with `n` an item
  this is `Σ_k A (p, k) · B (k, n)` for the region's two arrays `A` and `B`; `A` is the user embeddings and column `n`
  of `B`, lying left of the padding, is column `n` of the item embeddings. So the kernel's result is the rating matrix
  of `users` and `items`, and its argument arrays end as they began.
-/
import proofs.«181540_j50044958933433_1_alg».proof.Proof.Whole
import proofs.«181540_j50044958933433_1_alg».proof.Proof.Entry
import proofs.«181540_j50044958933433_1_alg».proof.Proof.Rating

noncomputable section

namespace Cert.KernelIdeal.KernelRun

open Cert.KernelIdeal Cert.KernelIdeal.Gen
open Idealize.ShloMosaic Idealize.ShloMosaic.TcCoe Idealize.SL.Sem Idealize.ShloMosaic.StableHlo Idealize.ShloMosaic.ValueIdx
open Cert.KernelIdeal.Entry (users items)

variable (m : (ℓ : Loc nD τ sig) → Buf (Elt Ideal) ℓ) (ρ : Dev nD → PrngReg)

/-- The region leaves its output array at the padded product. -/
theorem region_array (c : Dev nD) :
    Pipeline.withArrays spec0 c (V0 m c) (fun w => (dats m 0 c).arrAt w cfg0.N) (Proc.devRef .tc (Pipeline.arrRef spec0 2))
      = Cert.KernelIdeal.Whole.product (V m c main_v56 : S2048x64.Idx → EReal) (V m c main_v57 : S64x50176.Idx → EReal) :=
  (Pipeline.withArrays_arr spec0 launch0.win.arr_inj c _ _ 2).trans (Cert.KernelIdeal.Whole.final m c)

/-- The first 50000 columns of the padded product are the rating matrix. -/
theorem sliced_product (c : Dev nD) :
    extractStridedSlice S2048x50000 ![0, 0]
        (Cert.KernelIdeal.Whole.product (V m c main_v56 : S2048x64.Idx → EReal) (V m c main_v57 : S64x50176.Idx → EReal))
        slices_S2048x50176_S2048x50000_0_0
      = Cert.Rating.rating (users m c) (items m c) := by
  funext i
  obtain ⟨p, n, rfl⟩ : ∃ (p : Fin 2048) (n : Fin 50000), i = ix2 p n := ⟨i 0, i 1, eq_ix2 i⟩
  refine (extractStridedSlice_apply ![0, 0] _ slices_S2048x50176_S2048x50000_0_0 (ix2 p n)
    (ix2 p (⟨n.val, by omega⟩ : Fin 50176)) fun a => ?_).trans ?_
  · match a with
    | ⟨0, _⟩ => show p.val = 0 + p.val; omega
    | ⟨1, _⟩ => show n.val = 0 + n.val; omega
  · rw [Cert.KernelIdeal.Whole.product_at, Cert.Rating.rating_at]
    refine Finset.sum_congr rfl fun k _ => ?_
    rw [Cert.KernelIdeal.Entry.users_at, Cert.KernelIdeal.Entry.items_at]

/-- What the result buffer holds after the lines that follow the region. -/
theorem result_eq (c : Dev nD) :
    Pipeline.afterTail₀ cfgs (dats m) 0 (V0 m) [hostOps1] c main_v59 = Cert.Rating.rating (users m c) (items m c) := by
  unfold Pipeline.afterTail₀
  show StableHlo.after hostOps1 _ (Proc.devRef .tc main_v59) = _
  after_results
  show extractStridedSlice S2048x50000 ![0, 0]
      (Pipeline.withArrays spec0 c (V0 m c) (fun w => (dats m 0 c).arrAt w cfg0.N) (Proc.devRef .tc (Pipeline.arrRef spec0 2)))
      slices_S2048x50176_S2048x50000_0_0 = _
  rw [region_array]
  exact sliced_product m c

/-- Every weakly fair execution of the kernel's program terminates with the result at the rating matrix of `users` and
    `items` and the argument arrays unchanged. -/
theorem run : θ_run defs (onTc (τ := τ) (main (F := Ideal))) ⟨m, fun _ => 0, ρ⟩ fun r => ∀ c : Dev nD,
      r.2.mem ((c.tc : Thread nD τ).loc main_v59) = Cert.Rating.rating (users m c) (items m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v59 (Pipeline.mem_restRefs_of main_v59 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelRun

end
-- ==== Proof.RefRating.lean ====
/-
  The reference computes the rating matrix.

  Its last operation is one product of the gathered user embeddings `[2048, 64]` with the transposed item embeddings
  `[64, 50000]`, contracting the 64 features: read at `(p, n)` it is `Σ_k U (p, k) · W (k, n)`. The two operands — the
  propagated, averaged and gathered embeddings — are carried as the named stages of the reference's run and never opened.
-/
import proofs.«181540_j50044958933433_1_alg».proof.Proof.Gen.ReferenceIdeal.Read
import proofs.«181540_j50044958933433_1_alg».proof.Proof.Rating

noncomputable section

namespace Cert.ReferenceIdeal.RefRating

open Cert.ReferenceIdeal Idealize.ShloMosaic Idealize.ShloMosaic.ValueIdx Cert.ReferenceIdeal.Read

/-- The product's left index at output `(p, n)` and feature `k` is `(p, k)`. -/
theorem lidx_eq (p : Fin 2048) (n : Fin 50000) (k : Fin 64) :
    lidx_main_v55 (ix2 p n) k = ix2 p k :=
  funext fun a => Fin.ext (by match a with | ⟨0, _⟩ => rfl | ⟨1, _⟩ => rfl)

/-- The product's right index at output `(p, n)` and feature `k` is `(k, n)`. -/
theorem ridx_eq (p : Fin 2048) (n : Fin 50000) (k : Fin 64) :
    ridx_main_v55 (ix2 p n) k = ix2 k n :=
  funext fun a => Fin.ext (by match a with | ⟨0, _⟩ => rfl | ⟨1, _⟩ => rfl)

/-- The reference's result is the rating matrix of its two last intermediate arrays. -/
theorem result_eq (x0 : (⟨S100000x64, .f32⟩ : BufTy).Contents (Elt Ideal)) (x1 : (⟨S50000x64, .f32⟩ : BufTy).Contents (Elt Ideal))
    (x2 : (⟨S3000000, .f32⟩ : BufTy).Contents (Elt Ideal)) (x3 x4 : (⟨S3000000, .i32⟩ : BufTy).Contents (Elt Ideal))
    (x5 : (⟨S2048, .i32⟩ : BufTy).Contents (Elt Ideal)) :
    val_main_v55 (F := Ideal) x0 x1 x2 x3 x4 x5
      = Cert.Rating.rating (val_main_v53 (F := Ideal) x0 x1 x2 x3 x4 x5) (val_main_v54 (F := Ideal) x0 x1 x2 x3 x4) := by
  funext i
  obtain ⟨p, n, rfl⟩ : ∃ (p : Fin 2048) (n : Fin 50000), i = ix2 p n := ⟨i 0, i 1, eq_ix2 i⟩
  rw [val_main_v55_apply, Cert.Rating.rating_at]
  simp only [lidx_eq, ridx_eq]

end Cert.ReferenceIdeal.RefRating

end
-- ==== Proof.lean ====
/-
  A collaborative-filtering model scores a batch of 2048 users against 50000 items. Both programs first propagate the
  user and item embeddings over the interaction graph three times (each layer gathers the neighbours' rows, scales them
  by the edge weights and sums them into the target rows), average the four layers, gather the batch's user rows `U`
  `[2048, 64]` and transpose the item rows to `W` `[64, 50000]` — the same operations in the same order, so `U` and
  `W` are the same two arrays in both, and they are never opened here. The programs differ only in how they form the
  rating matrix `U · W`:

  * the reference takes one product, `Σ_k U (p, k) · W (k, n)`;
  * the kernel narrows `U` and `W` to a 16-bit format (the identity on the extended reals), pads `W` on the right to
    50176 = 49 · 1024 columns, computes the product one tile of 1024 columns at a time into a zero accumulator, and
    keeps the first 50000 columns of the result.

  Column `n` of a product depends only on column `n` of the right factor, so each tile is the restriction of the one
  whole product, the tiles cover every column, and a kept column never meets the padding: the kernel's result at
  `(p, n)` is the same sum `Σ_k U (p, k) · W (k, n)`. No law of arithmetic beyond this identity of terms is used, so
  the inputs' finiteness is not needed for the values.

  Modules: `Rating` (the rating matrix as one function), `RefRating` (the reference's product is it), `Body` (one
  grid point's tile as inner products), `Whole` (the tiles are the padded product), `Entry` (the region's two arrays
  are `U` narrowed and `W` padded and narrowed), `KernelRun` (the kept columns are the rating matrix; the run).
-/
import proofs.«181540_j50044958933433_1_alg».proof.Defs
import proofs.«181540_j50044958933433_1_alg».proof.Proof.Gen.Kernel
import proofs.«181540_j50044958933433_1_alg».proof.Proof.Gen.Kernel.Skeleton
import proofs.«181540_j50044958933433_1_alg».proof.Proof.Gen.Kernel.Launch
import proofs.«181540_j50044958933433_1_alg».proof.Proof.Gen.Kernel.Points
import proofs.«181540_j50044958933433_1_alg».proof.Proof.Gen.Kernel.Frame
import proofs.«181540_j50044958933433_1_alg».proof.Proof.Gen.KernelIdeal
import proofs.«181540_j50044958933433_1_alg».proof.Proof.Gen.KernelIdeal.Skeleton
import proofs.«181540_j50044958933433_1_alg».proof.Proof.Gen.KernelIdeal.Launch
import proofs.«181540_j50044958933433_1_alg».proof.Proof.Gen.KernelIdeal.Points
import proofs.«181540_j50044958933433_1_alg».proof.Proof.Gen.KernelIdeal.Frame
import proofs.«181540_j50044958933433_1_alg».proof.Proof.Gen.ReferenceIdeal
import proofs.«181540_j50044958933433_1_alg».proof.Proof.Gen.Pre_finite_inputs
import proofs.«181540_j50044958933433_1_alg».proof.Proof.Gen.ReferenceIdeal.Run
import proofs.«181540_j50044958933433_1_alg».proof.Proof.Gen.ReferenceIdeal.Read
import proofs.«181540_j50044958933433_1_alg».proof.Proof.KernelRun
import proofs.«181540_j50044958933433_1_alg».proof.Proof.RefRating
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end at the rating matrix of the same two arrays. -/
theorem algebraic : Cert.algebraic_KernelIdeal_ReferenceIdeal := by
  intro m ρ m' ρ' _ hagree
  refine ⟨fun c => Cert.Rating.rating (Cert.KernelIdeal.Entry.users m c) (Cert.KernelIdeal.Entry.items m c),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.RefRating.result_eq]
  obtain ⟨h0, h1, h2, h3, h4, h5⟩ := hagree c
  rw [h0, h1, h2, h3, h4, h5]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
